-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S64x1x512x512 : Shape := ⟨4, ![64, 1, 512, 512]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S64x1x512x512 : S_.BroadcastsInDim S64x1x512x512 (![] : Fin 0 → Fin S64x1x512x512.rank)
  reducesTo_S64x1x512x512_S_d0_1_2_3 : S64x1x512x512.ReducesTo [0, 1, 2, 3] S_

variable [Facts]

def fn {F : FTy → Type} [FloatOps F] (main_arg0 : FVec F S64 .f32) (main_arg1 : FVec F S64x1x512x512 .f32) (main_arg2 : IVec S64 32) (main_arg3 : FVec F S64x1x512x512 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  let main_v9 : FVec F S64x1x512x512 .f32 := Host.absf main_arg3
  let main_cst_2 : FVec F S_ .f32 := constant S_ .f32 0x7F800000#32
  let main_v10 : FVec F S64x1x512x512 .f32 := broadcastInDim S64x1x512x512 ![] bcast_S_S64x1x512x512 main_cst_2
  let main_v11 : IVec S64x1x512x512 1 := cmpf .olt main_v9 main_v10
  let main_c_3 : IVec S_ 1 := constantI S_ 1 1#1
  let main_v12 : IVec S_ 1 := (fun x v => Host.reduce IntOp.andi x v reducesTo_S64x1x512x512_S_d0_1_2_3 h_S_) main_v11 main_c_3
  let main_v13 : IVec S_ 1 := andi main_v8 main_v12
  main_v13
-- ==== Kernel.lean ====
abbrev S64 : Shape := ⟨1, ![64]⟩
abbrev S64x1x512x512 : Shape := ⟨4, ![64, 1, 512, 512]⟩
abbrev S_ : Shape := ⟨0, ![]⟩
abbrev S64x1 : Shape := ⟨2, ![64, 1]⟩
abbrev S32x1x64x512 : Shape := ⟨4, ![32, 1, 64, 512]⟩
abbrev S32x1 : Shape := ⟨2, ![32, 1]⟩
abbrev S32x64x512 : Shape := ⟨3, ![32, 64, 512]⟩
abbrev S32x64 : Shape := ⟨2, ![32, 64]⟩
abbrev S32 : Shape := ⟨1, ![32]⟩

abbrev nBuf : Space → Nat
  | .hbm => 75
  | .vmem => 12
  | .smem => 0
  | _ => 0

abbrev bufTy : (tb : Table) → Fin (tcTables nBuf tb) → BufTy
  | .hbm, ⟨0, _⟩ => ⟨S64, .f32⟩
  | .hbm, ⟨1, _⟩ => ⟨S64x1x512x512, .f32⟩
  | .hbm, ⟨2, _⟩ => ⟨S64, .i32⟩
  | .hbm, ⟨3, _⟩ => ⟨S64x1x512x512, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .i1⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .i1⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S32x1x64x512, .f32⟩
  | .local _ .vmem, ⟨1, _⟩ => ⟨S32x1x64x512, .f32⟩
  | .local _ .vmem, ⟨2, _⟩ => ⟨S32x1x64x512, .f32⟩
  | .local _ .vmem, ⟨3, _⟩ => ⟨S32x1x64x512, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_cst_15 : Ref sig .tc := ⟨.hbm, 70, rfl⟩
abbrev main_v42 : Ref sig .tc := ⟨.hbm, 71, rfl⟩
abbrev main_v43 : Ref sig .tc := ⟨.hbm, 72, rfl⟩
abbrev main_cst_16 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S64 : S_.BroadcastsInDim S64 (![] : Fin 0 → Fin S64.rank)
  reducesTo_S64_S_d0 : S64.ReducesTo [0] S_
  h_S_ : 0 < S_.numel
  inb_S32x1_S32x1_0_0 : ∀ a, (![0, 0] : Fin 2 → Nat) a + S32x1.size a ≤ S32x1.size a
  h_S32x1 : 0 < S32x1.numel
  inb_S32x1x64x512_S32x1x64x512_0_0_0_0 : ∀ a, (![0, 0, 0, 0] : Fin 4 → Nat) a + S32x1x64x512.size a ≤ S32x1x64x512.size a
  h_S32x1x64x512 : 0 < S32x1x64x512.numel
  shapeCasts_S32x1x64x512_S32x64x512 : S32x1x64x512.ShapeCasts S32x64x512
  reduces_S32x64x512_S32x64 : S32x64x512.Reduces [2] S32x64
  reduces_S32x64_S32 : S32x64.Reduces [1] S32
  shapeCasts_S32_S32x1 : S32.ShapeCasts S32x1
  shapeCasts_S32x1_S32x1 : S32x1.ShapeCasts S32x1
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x64x512.size a ≤ S64x1x512x512.size a
  hwx0_0 : ∀ i : grid0.Coords, EltTy.bits .f32 = 32 ∨ (Rect.block (s := S64x1x512x512) S32x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x64x512.size a ≤ S64x1x512x512.size a
  hwx0_1 : ∀ i : grid0.Coords, EltTy.bits .f32 = 32 ∨ (Rect.block (s := S64x1x512x512) S32x1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S64x1.size a
  hwx0_5 : ∀ i : grid0.Coords, EltTy.bits .f32 = 32 ∨ (Rect.block (s := S64x1) S32x1.size (cc0_transform_5 i) (hinb0_5 i)).WholeWords (EltTy.packing .f32)

variable [Facts₀]

abbrev win0_0 : Pipeline.Window sig grid0 :=
  Pipeline.Window.ofSpec (Memref.whole main_arg1) S32x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S32x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_3) S32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64 : Shape := ⟨1, ![64]⟩
abbrev S64x1x512x512 : Shape := ⟨4, ![64, 1, 512, 512]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S64, .f32⟩
  | .hbm, ⟨1, _⟩ => ⟨S64x1x512x512, .f32⟩
  | .hbm, ⟨2, _⟩ => ⟨S64, .i32⟩
  | .hbm, ⟨3, _⟩ => ⟨S64x1x512x512, .f32⟩
  | .hbm, ⟨4, _⟩ => ⟨S64x1x512x512, .f32⟩
  | .hbm, ⟨5, _⟩ => ⟨S64x1x512x512, .f32⟩
  | .hbm, ⟨6, _⟩ => ⟨S_, .f32⟩
  | .hbm, ⟨7, _⟩ => ⟨S64x1x512x512, .f32⟩
  | .hbm, ⟨8, _⟩ => ⟨S64x1x512x512, .f32⟩
  | .hbm, ⟨9, _⟩ => ⟨S_, .f32⟩
  | .hbm, ⟨10, _⟩ => ⟨S64x1x512x512, .f32⟩
  | .hbm, ⟨11, _⟩ => ⟨S64x1x512x512, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64x1x512x512, .f32⟩
  | .hbm, ⟨38, _⟩ => ⟨S_, .f32⟩
  | .hbm, ⟨39, _⟩ => ⟨S64, .f32⟩
  | .hbm, ⟨40, _⟩ => ⟨S64x1x512x512, .f32⟩
  | .hbm, ⟨41, _⟩ => ⟨S_, .f32⟩
  | .hbm, ⟨42, _⟩ => ⟨S64, .f32⟩
  | .hbm, ⟨43, _⟩ => ⟨S64x1x512x512, .f32⟩
  | .hbm, ⟨44, _⟩ => ⟨S_, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .i1⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .i1⟩
  | .hbm, ⟨72, _⟩ => ⟨S64, .f32⟩
  | .hbm, ⟨73, _⟩ => ⟨S_, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_cst_10 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_14 : Ref sig .tc := ⟨.hbm, 59, rfl⟩
abbrev main_v35 : Ref sig .tc := ⟨.hbm, 60, rfl⟩
abbrev main_v36 : Ref sig .tc := ⟨.hbm, 61, rfl⟩
abbrev main_cst_15 : Ref sig .tc := ⟨.hbm, 62, rfl⟩
abbrev main_v37 : Ref sig .tc := ⟨.hbm, 63, rfl⟩
abbrev main_v38 : Ref sig .tc := ⟨.hbm, 64, rfl⟩
abbrev main_cst_16 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_17 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_18 : Ref sig .tc := ⟨.hbm, 73, rfl⟩
abbrev main_v45 : Ref sig .tc := ⟨.hbm, 74, rfl⟩
abbrev main_v46 : Ref sig .tc := ⟨.hbm, 75, rfl⟩
abbrev main_cst_19 : Ref sig .tc := ⟨.hbm, 76, rfl⟩
abbrev main_v47 : Ref sig .tc := ⟨.hbm, 77, rfl⟩
abbrev main_cst_20 : Ref sig .tc := ⟨.hbm, 78, rfl⟩
abbrev main_v48 : Ref sig .tc := ⟨.hbm, 79, rfl⟩
abbrev main_v49 : Ref sig .tc := ⟨.hbm, 80, rfl⟩
abbrev main_cst_21 : Ref sig .tc := ⟨.hbm, 81, rfl⟩
abbrev main_v50 : Ref sig .tc := ⟨.hbm, 82, rfl⟩
abbrev main_v51 : Ref sig .tc := ⟨.hbm, 83, rfl⟩
abbrev main_cst_22 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  bcast_S_S64 : S_.BroadcastsInDim S64 (![] : Fin 0 → Fin S64.rank)
  reducesTo_S64_S_d0 : S64.ReducesTo [0] S_
  h_S_ : 0 < S_.numel
  reducesTo_S64x1x512x512_S64_d1_2_3 : S64x1x512x512.ReducesTo [1, 2, 3] S64

variable [Facts₀]

class Facts : Prop extends Facts₀ where

variable [Facts]
-- ==== Proof.Bands.lean ====
/-
  What one grid point leaves in each of the four accumulators' buffers, as values, for any float instance.

  At a point that is not the first of its batch half the body reads the two input blocks `x0` (the logits) and
  `x1` (the masks) and the accumulator's previous contents `xo`, and stores `xo + (this band's total)`: each
  accumulator's new contents is its printed payload of those three. At the first point of a batch half the body
  first stores the zero splat and reads it back, so the same payload is applied to the zero splat instead of `xo`.
  The four accumulators hold the band totals of p·m, p·p, m·m and p, where p is the logistic of the logits.
-/
import proofs.«168181_j76931454206569_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Bands

open Cert.KernelIdeal Cert.KernelIdeal.Gen

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

/-! ## A later point of a batch half: previous contents plus this band -/

theorem left_later_2 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_2 c i a2 h2 a3 h3 a4 h4 a5 h5 a6 h6 a7 h7 hc x0 x1 xo2 xo3 xo4 xo5 = k0_pay11 x0 x1 xo2 := by
  unfold out0_B_2
  rw [View.read_writes_eq_canon _ _ _ (cover0_B_2 c i a2 h2 a3 h3 a4 h4 a5 h5 a6 h6 a7 h7 hc x0 x1 xo2 xo3 xo4 xo5)]
  unfold kernelRun0_B
  dsimp only
  try sl_unfold_words
  rw [View.canon_unit_zero zero2]
  simp only [View.readAt_eq_ld, h2.read_unread, h3.read_unread, h4.read_unread, h5.read_unread, h6.read_unread, h7.read_unread,
    View.ld_unit_zero (S := S32x1x64x512) zero4, View.ld_unit_zero (S := S32x1) zero2]

theorem left_later_3 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_3 c i a2 h2 a3 h3 a4 h4 a5 h5 a6 h6 a7 h7 hc x0 x1 xo2 xo3 xo4 xo5 = k0_pay12 x0 xo3 := by
  unfold out0_B_3
  rw [View.read_writes_eq_canon _ _ _ (cover0_B_3 c i a2 h2 a3 h3 a4 h4 a5 h5 a6 h6 a7 h7 hc x0 x1 xo2 xo3 xo4 xo5)]
  unfold kernelRun0_B
  dsimp only
  try sl_unfold_words
  rw [View.canon_unit_zero zero2]
  simp only [View.readAt_eq_ld, h2.read_unread, h3.read_unread, h4.read_unread, h5.read_unread, h6.read_unread, h7.read_unread,
    View.ld_unit_zero (S := S32x1x64x512) zero4, View.ld_unit_zero (S := S32x1) zero2]

theorem left_later_4 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_4 c i a2 h2 a3 h3 a4 h4 a5 h5 a6 h6 a7 h7 hc x0 x1 xo2 xo3 xo4 xo5 = k0_pay1 (k0_pay9 x1) xo4 := by
  unfold out0_B_4
  rw [View.read_writes_eq_canon _ _ _ (cover0_B_4 c i a2 h2 a3 h3 a4 h4 a5 h5 a6 h6 a7 h7 hc x0 x1 xo2 xo3 xo4 xo5)]
  unfold kernelRun0_B
  dsimp only
  try sl_unfold_words
  rw [View.canon_unit_zero zero2]
  simp only [View.readAt_eq_ld, h2.read_unread, h3.read_unread, h4.read_unread, h5.read_unread, h6.read_unread, h7.read_unread,
    View.ld_unit_zero (S := S32x1x64x512) zero4, View.ld_unit_zero (S := S32x1) zero2]

theorem left_later_5 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : ¬cond0_0 i)
    (x0 x1 : Vec F S32x1x64x512 .f32) (xo2 xo3 xo4 xo5 : Vec F S32x1 .f32) :
    out0_B_5 c i a2 h2 a3 h3 a4 h4 a5 h5 a6 h6 a7 h7 hc x0 x1 xo2 xo3 xo4 xo5 = k0_pay2 (k0_pay10 x0) xo5 := by
  unfold out0_B_5
  rw [View.read_writes_eq_canon _ _ _ (cover0_B_5 c i a2 h2 a3 h3 a4 h4 a5 h5 a6 h6 a7 h7 hc x0 x1 xo2 xo3 xo4 xo5)]
  unfold kernelRun0_B
  dsimp only
  try sl_unfold_words
  rw [View.canon_unit_zero zero2]
  simp only [View.readAt_eq_ld, h2.read_unread, h3.read_unread, h4.read_unread, h5.read_unread, h6.read_unread, h7.read_unread,
    View.ld_unit_zero (S := S32x1x64x512) zero4, View.ld_unit_zero (S := S32x1) zero2]

/-! ## The first point of a batch half: the zero splat plus this band -/

theorem left_first_2 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_2 c i a2 h2 a3 h3 a4 h4 a5 h5 a6 h6 a7 h7 hc x0 x1 = k0_pay11 x0 x1 k0_pay3 := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_cons_unit_zero (S := S32x1) zero2, View.readCov_unit_zero (S := S32x1) _ zero2]
  simp only [View.readAt_eq_ld, h2.read_unread, h3.read_unread,
    View.ld_unit_zero (S := S32x1x64x512) zero4, View.ld_unit_zero (S := S32x1) zero2]

theorem left_first_3 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_3 c i a2 h2 a3 h3 a4 h4 a5 h5 a6 h6 a7 h7 hc x0 x1 = k0_pay12 x0 k0_pay4 := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_cons_unit_zero (S := S32x1) zero2, View.readCov_unit_zero (S := S32x1) _ zero2]
  simp only [View.readAt_eq_ld, h2.read_unread, h3.read_unread,
    View.ld_unit_zero (S := S32x1x64x512) zero4, View.ld_unit_zero (S := S32x1) zero2]

theorem left_first_4 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_4 c i a2 h2 a3 h3 a4 h4 a5 h5 a6 h6 a7 h7 hc x0 x1 = k0_pay1 (k0_pay9 x1) k0_pay5 := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S32x1) zero2, View.readCov_unit_zero (S := S32x1) _ zero2]
  simp only [View.readAt_eq_ld, h2.read_unread, h3.read_unread,
    View.ld_unit_zero (S := S32x1x64x512) zero4, View.ld_unit_zero (S := S32x1) zero2]

theorem left_first_5 (c : Dev nD) (i : grid0.Coords) (a2 : Memref sig .tc .vmem S32x1x64x512 .f32) (h2 : a2.IsWhole) (a3 : Memref sig .tc .vmem S32x1x64x512 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (hc : cond0_0 i)
    (x0 x1 : Vec F S32x1x64x512 .f32) :
    out0_A_5 c i a2 h2 a3 h3 a4 h4 a5 h5 a6 h6 a7 h7 hc x0 x1 = k0_pay2 (k0_pay10 x0) k0_pay6 := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S32x1) zero2, View.readCov_unit_zero (S := S32x1) _ zero2]
  simp only [View.readAt_eq_ld, h2.read_unread, h3.read_unread,
    View.ld_unit_zero (S := S32x1x64x512) zero4, View.ld_unit_zero (S := S32x1) zero2]

end Cert.KernelIdeal.Bands
-- ==== Proof.SumLaw.lean ====
/-
  The arithmetic both sides share, with no program in sight.

  A sample's image is 512 rows of 512 entries. One side adds all of them in one sum; the other cuts the rows into
  eight bands of 64, adds each band's rows entry by entry, and adds the eight band totals. Over a commutative additive
  monoid (the extended reals are one: their sum is commutative and associative, infinities included) the two totals
  agree, because `(s, r) ↦ 64 s + r` is a bijection from band × row-in-band onto the rows.

  The one-sum side meets the total as a sum over the indices `(σ', c, h, l)` of the whole array whose sample
  coordinate is `σ`; since the channel axis has one coordinate these are exactly the `(σ, 0, h, l)`.
-/
import Idealize.ShloMosaic.PureOps.Ideal.Laws
import Idealize.ShloMosaic.Lib.ValueIdx

noncomputable section

namespace Cert.DiceSums

open Idealize.ShloMosaic Idealize.ShloMosaic.ValueIdx

/-- The batch of images: 64 samples, one channel, 512 rows, 512 entries a row. -/
abbrev SImg : Shape := ⟨4, ![64, 1, 512, 512]⟩
/-- One number per sample. -/
abbrev SSmp : Shape := ⟨1, ![64]⟩

/-- Row `r` of band `s`: row `64 s + r` of the image. -/
def bandRow (s : Fin 8) (r : Fin 64) : Fin 512 := ⟨64 * s.val + r.val, by omega⟩

/-- Band by band, then row by row inside the band, is every row once. -/
theorem sum_bands {M : Type*} [AddCommMonoid M] (ψ : Fin 512 → M) :
    ∑ s : Fin 8, ∑ r : Fin 64, ψ (bandRow s r) = ∑ h : Fin 512, ψ h :=
  (Fintype.sum_prod_type' (fun (s : Fin 8) (r : Fin 64) => ψ (bandRow s r))).symm.trans
    (Fintype.sum_equiv (finProdFinEquiv : Fin 8 × Fin 64 ≃ Fin 512) _ _ fun x => congrArg ψ (Fin.ext (by
      show 64 * x.1.val + x.2.val = ((finProdFinEquiv : Fin 8 × Fin 64 ≃ Fin (8 * 64)) x).val
      rw [finProdFinEquiv_apply_val]; omega)))

/-- The indices of the whole array that a sum over channel, row and entry collects for sample `j` are the
    `(j, 0, h, l)`: the total is the double sum over rows and entries. -/
theorem sum_sample {M : Type*} [AddCommMonoid M] (hred : SImg.ReducesTo [1, 2, 3] SSmp) (f : SImg.Idx → M) (j : SSmp.Idx) :
    ∑ i ∈ Finset.univ.filter (fun i => hred.drop i = j), f i = ∑ h : Fin 512, ∑ l : Fin 512, f (ix4 (j 0) 0 h l) := by
  have key : ∀ i : SImg.Idx, hred.drop i = j → ix4 (j 0) (0 : Fin 1) (i 2) (i 3) = i := fun i hi => by
    have h0 : ((hred.drop i) 0 : Nat) = i 0 := Shape.ReducesTo.drop_apply_val_of_eq hred i 0 0
    rw [hi] at h0
    funext a
    match a with
    | ⟨0, _⟩ => exact Fin.ext h0
    | ⟨1, _⟩ => exact Fin.ext (by have h1 : (i 1).val < 1 := (i 1).isLt; show (0 : Nat) = (i 1).val; omega)
    | ⟨2, _⟩ => rfl
    | ⟨3, _⟩ => rfl
  rw [← Fintype.sum_prod_type' (fun (h : Fin 512) (l : Fin 512) => f (ix4 (j 0) 0 h l))]
  refine Finset.sum_nbij' (fun i => (i 2, i 3)) (fun p => ix4 (j 0) 0 p.1 p.2) (fun _ _ => Finset.mem_univ _) ?_ ?_ ?_ ?_
  · intro p _
    rw [Finset.mem_filter]
    refine ⟨Finset.mem_univ _, funext fun b => ?_⟩
    match b with
    | ⟨0, _⟩ => exact Fin.ext (Shape.ReducesTo.drop_apply_val_of_eq hred _ 0 0)
  · intro i hi
    exact key i (Finset.mem_filter.mp hi).2
  · intro p _
    rfl
  · intro i hi
    exact congrArg f (key i (Finset.mem_filter.mp hi).2).symm

/-! ## The four quantities summed, entry by entry, of a logit `x` and a mask value `m` (`p` = logistic of `x`) -/

/-- p · m -/
def ePM (x m : EReal) : EReal := Ideal.logistic x * m
/-- p · p -/
def ePP (x _m : EReal) : EReal := Ideal.logistic x * Ideal.logistic x
/-- m · m -/
def eMM (_x m : EReal) : EReal := m * m
/-- p -/
def eP (x _m : EReal) : EReal := Ideal.logistic x

/-- Sample `σ`'s total of `e(logit, mask)` over its 512 × 512 entries. -/
def total (e : EReal → EReal → EReal) (X Mk : SImg.Idx → EReal) (σ : Fin 64) : EReal :=
  ∑ h : Fin 512, ∑ l : Fin 512, e (X (ix4 σ 0 h l)) (Mk (ix4 σ 0 h l))

/-- The total, band by band. -/
theorem total_bands (e : EReal → EReal → EReal) (X Mk : SImg.Idx → EReal) (σ : Fin 64) :
    ∑ s : Fin 8, ∑ r : Fin 64, ∑ l : Fin 512, e (X (ix4 σ 0 (bandRow s r) l)) (Mk (ix4 σ 0 (bandRow s r) l)) = total e X Mk σ :=
  sum_bands fun h => ∑ l : Fin 512, e (X (ix4 σ 0 h l)) (Mk (ix4 σ 0 h l))

end Cert.DiceSums

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.BandTotals.lean ====
/-
  The four accumulators' payloads read at an entry, at the ideal values.

  A payload takes the logits block `x0` and the masks block `x1` (32 samples × 1 channel × 64 rows × 512 entries)
  and the accumulator's previous column `xo` (32 × 1). It drops the channel axis, forms `e(logit, mask)` entry by
  entry (`p·m`, `p·p`, `m·m` or `p`, with `p` the logistic of the logit), adds each row's 512 entries, adds
  the 64 row sums, writes the 32 totals as a column and adds it to `xo`. So at sample `b` the new value is
  `xo b + Σ_r Σ_l e(x0(b,0,r,l), x1(b,0,r,l))`: exact sums of extended reals, no rounding and no order.
-/
import proofs.«168181_j76931454206569_2_alg».proof.Proof.Gen.KernelIdeal.Skeleton
import proofs.«168181_j76931454206569_2_alg».proof.Proof.SumLaw
import proofs.«168181_j76931454206569_2_alg».proof.Proof.LibColumnCasts
import Idealize.ShloMosaic.PureOps.Ideal.Laws
import Idealize.ShloMosaic.Lib.Pipeline.Value
import Idealize.ShloMosaic.Lib.ValueIdx

noncomputable section

open Idealize.ShloMosaic Idealize.ShloMosaic.ValueIdx

namespace Cert.KernelIdeal.BandTotals

open Cert.KernelIdeal Cert.KernelIdeal.Gen Cert.DiceSums Cert.LibColumnCasts

/-- Entries added along each row, then the row sums added, then written as a column: at sample `b` the double sum
    over the block's rows and entries. -/
theorem band_total (v : FVec Ideal S32x64x512 .f32) (hl : S32x64x512.Reduces [2] S32x64) (hr : S32x64.Reduces [1] S32)
    (hφ : FKind.Formats .f32) (hacc : (0x00000000#32 : BitVec 32) = FKind.add.neutral .f32 hφ) (hc : S32.ShapeCasts S32x1)
    (b : Fin 32) (u : Fin 1) :
    shapeCast S32x1 (multiReduction .add [1] S32 (multiReduction .add [2] S32x64 v 0x00000000#32 hl hφ hacc) 0x00000000#32 hr hφ hacc) hc (ix2 b u)
      = ∑ r : Fin 64, ∑ l : Fin 512, v (ix3 b r l) := by
  refine (cast_column _ hc b u).trans ?_
  refine (Ideal.multiReduction_add_single _ _ hr hφ hacc (ix1 b)).trans ?_
  refine Finset.sum_congr rfl fun r _ => ?_
  refine (Ideal.multiReduction_add_single v _ hl hφ hacc (hr.lift (ix1 b) r)).trans ?_
  refine Finset.sum_congr rfl fun l _ => congrArg v ?_
  funext a
  match a with
  | ⟨0, _⟩ => rfl
  | ⟨1, _⟩ => rfl
  | ⟨2, _⟩ => rfl

/-- The masks block with its channel axis dropped. -/
theorem masks_apply (x1 : Vec Ideal S32x1x64x512 .f32) (b : Fin 32) (r : Fin 64) (l : Fin 512) :
    k0_pay7 (F := Ideal) x1 (ix3 b r l) = x1 (ix4 b 0 r l) := cast_dropSecond x1 _ b r l

/-- The logistic of the logits block with its channel axis dropped. -/
theorem probs_apply (x0 : Vec Ideal S32x1x64x512 .f32) (b : Fin 32) (r : Fin 64) (l : Fin 512) :
    k0_pay8 (F := Ideal) x0 (ix3 b r l) = Ideal.logistic (x0 (ix4 b 0 r l)) :=
  congrArg Ideal.logistic (cast_dropSecond x0 _ b r l)

/-- The zero splat the first point of a batch half stores is the extended real `0`. -/
theorem splat_zero (z : FVec Ideal S32x1 .f32) (hz : z = broadcast S32x1 (Scalar.ofBits .f32 0x00000000#32)) (i : S32x1.Idx) :
    z i = 0 := by
  subst hz
  exact Ideal.ofBits_zero_f32

/-- p·m: previous value plus the band's total of `logistic(logit) · mask`. -/
theorem pm_apply (x0 x1 : Vec Ideal S32x1x64x512 .f32) (xo : Vec Ideal S32x1 .f32) (b : Fin 32) (u : Fin 1) :
    k0_pay11 (F := Ideal) x0 x1 xo (ix2 b u) = xo (ix2 b u) + ∑ r : Fin 64, ∑ l : Fin 512, ePM (x0 (ix4 b 0 r l)) (x1 (ix4 b 0 r l)) := by
  unfold k0_pay11
  refine (addf_apply _ _ (ix2 b u)).trans (congrArg₂ (· + ·) (congrFun (shapeCast_self xo _) _) ?_)
  refine (band_total _ _ _ _ _ _ b u).trans (Finset.sum_congr rfl fun r _ => Finset.sum_congr rfl fun l _ => ?_)
  refine (mulf_apply _ _ (ix3 b r l)).trans ?_
  rw [probs_apply, masks_apply]; rfl

/-- p·p -/
theorem pp_apply (x0 x1 : Vec Ideal S32x1x64x512 .f32) (xo : Vec Ideal S32x1 .f32) (b : Fin 32) (u : Fin 1) :
    k0_pay12 (F := Ideal) x0 xo (ix2 b u) = xo (ix2 b u) + ∑ r : Fin 64, ∑ l : Fin 512, ePP (x0 (ix4 b 0 r l)) (x1 (ix4 b 0 r l)) := by
  unfold k0_pay12
  refine (addf_apply _ _ (ix2 b u)).trans (congrArg₂ (· + ·) (congrFun (shapeCast_self xo _) _) ?_)
  refine (band_total _ _ _ _ _ _ b u).trans (Finset.sum_congr rfl fun r _ => Finset.sum_congr rfl fun l _ => ?_)
  refine (mulf_apply _ _ (ix3 b r l)).trans ?_
  rw [probs_apply]; rfl

/-- m·m -/
theorem mm_apply (x0 x1 : Vec Ideal S32x1x64x512 .f32) (xo : Vec Ideal S32x1 .f32) (b : Fin 32) (u : Fin 1) :
    k0_pay1 (F := Ideal) (k0_pay9 x1) xo (ix2 b u) = xo (ix2 b u) + ∑ r : Fin 64, ∑ l : Fin 512, eMM (x0 (ix4 b 0 r l)) (x1 (ix4 b 0 r l)) := by
  unfold k0_pay1 k0_pay9
  refine (addf_apply _ _ (ix2 b u)).trans (congrArg₂ (· + ·) (congrFun (shapeCast_self xo _) _) ?_)
  refine (band_total _ _ _ _ _ _ b u).trans (Finset.sum_congr rfl fun r _ => Finset.sum_congr rfl fun l _ => ?_)
  refine (mulf_apply _ _ (ix3 b r l)).trans ?_
  rw [masks_apply]; rfl

/-- p -/
theorem p_apply (x0 x1 : Vec Ideal S32x1x64x512 .f32) (xo : Vec Ideal S32x1 .f32) (b : Fin 32) (u : Fin 1) :
    k0_pay2 (F := Ideal) (k0_pay10 x0) xo (ix2 b u) = xo (ix2 b u) + ∑ r : Fin 64, ∑ l : Fin 512, eP (x0 (ix4 b 0 r l)) (x1 (ix4 b 0 r l)) := by
  unfold k0_pay2 k0_pay10
  refine (addf_apply _ _ (ix2 b u)).trans (congrArg₂ (· + ·) (congrFun (shapeCast_self xo _) _) ?_)
  refine (band_total _ _ _ _ _ _ b u).trans (Finset.sum_congr rfl fun r _ => Finset.sum_congr rfl fun l _ => ?_)
  rw [probs_apply]; rfl

end Cert.KernelIdeal.BandTotals
-- ==== Proof.BlockRead.lean ====
/-
  Where a grid point's blocks sit in the arrays.

  The sixteen grid points are numbered `t = 8 q + s`: batch half `q` (samples `32 q … 32 q + 31`) and band `s`
  (rows `64 s … 64 s + 63`). The logits' and the masks' block at point `t` is that half's samples, the one channel,
  that band's rows and every entry of a row: entry `(b, 0, r, l)` of the block is entry
  `(32 q + b, 0, 64 s + r, l)` of the argument array, which the region finds as the caller left it.
-/
import proofs.«168181_j76931454206569_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The sample that row `b` of point `t`'s block is: `32 (t / 8) + b`. -/
def smpOf (t : Fin cfg0.N) (b : Fin 32) : Fin 64 :=
  ⟨32 * (t.val / 8) + b.val, by have := t.isLt; have hN : cfg0.N = 16 := N_0; omega⟩

/-- The image row that row `r` of point `t`'s block is: `64 (t % 8) + r`. -/
def rowOf (t : Fin cfg0.N) (r : Fin 64) : Fin 512 := ⟨64 * (t.val % 8) + r.val, by omega⟩

/-- The block index of each window at point `t`, axis by axis (decided once over the sixteen points). -/
theorem index_in : ∀ t : Fin cfg0.N,
    (win0_0.index t (0 : Fin 4) = t.val / 8 ∧ win0_0.index t (1 : Fin 4) = 0 ∧ win0_0.index t (2 : Fin 4) = t.val % 8 ∧ win0_0.index t (3 : Fin 4) = 0)
    ∧ (win0_1.index t (0 : Fin 4) = t.val / 8 ∧ win0_1.index t (1 : Fin 4) = 0 ∧ win0_1.index t (2 : Fin 4) = t.val % 8 ∧ win0_1.index t (3 : Fin 4) = 0) :=
  (by decide +kernel : ∀ t : Fin grid0.N, _)

theorem index_out : ∀ t : Fin cfg0.N,
    (win0_2.index t (0 : Fin 2) = t.val / 8 ∧ win0_2.index t (1 : Fin 2) = 0) ∧ (win0_3.index t (0 : Fin 2) = t.val / 8 ∧ win0_3.index t (1 : Fin 2) = 0)
    ∧ (win0_4.index t (0 : Fin 2) = t.val / 8 ∧ win0_4.index t (1 : Fin 2) = 0) ∧ (win0_5.index t (0 : Fin 2) = t.val / 8 ∧ win0_5.index t (1 : Fin 2) = 0) :=
  (by decide +kernel : ∀ t : Fin grid0.N, _)

/-- The logits' block at point `t`, entry by entry. -/
theorem logits_block (c : Dev nD) (t : Fin cfg0.N) (b : Fin 32) (r : Fin 64) (l : Fin 512) :
    (iblk m c 0 t : Vec F S32x1x64x512 .f32) (ix4 b 0 r l)
      = m ((c : Thread nD τ).loc main_arg1) (ix4 (smpOf t b) 0 (rowOf t r) l) := by
  have hi := (index_in t).1
  unfold iblk
  rw [View.read_apply]
  show V m c main_arg1 _ = m (c.tc.loc main_arg1) _
  rw [V_main_arg1]
  congr 1
  funext a
  apply Fin.ext
  match a with
  | ⟨0, _⟩ => show win0_0.index t 0 * 32 + 1 * b.val = 32 * (t.val / 8) + b.val; rw [hi.1]; omega
  | ⟨1, _⟩ => show win0_0.index t 1 * 1 + 1 * 0 = 0; rw [hi.2.1]
  | ⟨2, _⟩ => show win0_0.index t 2 * 64 + 1 * r.val = 64 * (t.val % 8) + r.val; rw [hi.2.2.1]; omega
  | ⟨3, _⟩ => show win0_0.index t 3 * 512 + 1 * l.val = l.val; rw [hi.2.2.2]; omega

/-- The masks' block at point `t`, entry by entry. -/
theorem masks_block (c : Dev nD) (t : Fin cfg0.N) (b : Fin 32) (r : Fin 64) (l : Fin 512) :
    (iblk m c 1 t : Vec F S32x1x64x512 .f32) (ix4 b 0 r l)
      = m ((c : Thread nD τ).loc main_arg3) (ix4 (smpOf t b) 0 (rowOf t r) l) := by
  have hi := (index_in t).2
  unfold iblk
  rw [View.read_apply]
  show V m c main_arg3 _ = m (c.tc.loc main_arg3) _
  rw [V_main_arg3]
  congr 1
  funext a
  apply Fin.ext
  match a with
  | ⟨0, _⟩ => show win0_1.index t 0 * 32 + 1 * b.val = 32 * (t.val / 8) + b.val; rw [hi.1]; omega
  | ⟨1, _⟩ => show win0_1.index t 1 * 1 + 1 * 0 = 0; rw [hi.2.1]
  | ⟨2, _⟩ => show win0_1.index t 2 * 64 + 1 * r.val = 64 * (t.val % 8) + r.val; rw [hi.2.2.1]; omega
  | ⟨3, _⟩ => show win0_1.index t 3 * 512 + 1 * l.val = l.val; rw [hi.2.2.2]; omega

end Cert.KernelIdeal.Blocks
-- ==== Proof.Accum.lean ====
/-
  The accumulation over a batch half's eight bands, at the ideal values.

  Each accumulator is reset at the first band of a batch half (`t % 8 = 0`: it then holds zero plus that band's
  total) and at every later band holds what the band before left plus this band's total. So after the last band
  (`t % 8 = 7`, the one point whose contents are written back) it holds, for each of the half's 32 samples, zero
  plus the eight band totals: the sample's total over all 512 rows. The fold over the points is the library's
  (`Pipeline.accAt`); the band totals are sums of extended reals, whose addition is commutative and associative,
  so no finiteness is used.
-/
import proofs.«168181_j76931454206569_2_alg».proof.Proof.Bands
import proofs.«168181_j76931454206569_2_alg».proof.Proof.BandTotals
import proofs.«168181_j76931454206569_2_alg».proof.Proof.BlockRead

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Bands Cert.KernelIdeal.BandTotals Cert.KernelIdeal.Blocks Cert.DiceSums

variable (m : (ℓ : Loc nD τ sig) → Buf (Elt Ideal) ℓ) (c : Dev nD)

/-- The logits as the caller left them. -/
abbrev logits : SImg.Idx → EReal := m ((c : Thread nD τ).loc main_arg1)
/-- The masks as the caller left them. -/
abbrev masks : SImg.Idx → EReal := m ((c : Thread nD τ).loc main_arg3)

/-- Point `n`'s band total of `e` for the sample in row `b` of its block (zero past the grid, where it is never used). -/
def bandAt (e : EReal → EReal → EReal) (n : ℕ) (i : S32x1.Idx) : EReal :=
  if h : n < cfg0.N then
    ∑ r : Fin 64, ∑ l : Fin 512, e (logits m c (ix4 (smpOf ⟨n, h⟩ (i 0)) 0 (rowOf ⟨n, h⟩ r) l)) (masks m c (ix4 (smpOf ⟨n, h⟩ (i 0)) 0 (rowOf ⟨n, h⟩ r) l))
  else 0

/-- A payload that adds the band's total of `e` to the previous column, applied to point `n`'s blocks. -/
theorem pay_at_point (e : EReal → EReal → EReal)
    (pay : Vec Ideal S32x1x64x512 .f32 → Vec Ideal S32x1x64x512 .f32 → Vec Ideal S32x1 .f32 → Vec Ideal S32x1 .f32)
    (hpay : ∀ (x0 x1 : Vec Ideal S32x1x64x512 .f32) (xo : Vec Ideal S32x1 .f32) (b : Fin 32) (u : Fin 1),
      pay x0 x1 xo (ix2 b u) = xo (ix2 b u) + ∑ r : Fin 64, ∑ l : Fin 512, e (x0 (ix4 b 0 r l)) (x1 (ix4 b 0 r l)))
    (n : ℕ) (h : n < cfg0.N) (xo : Vec Ideal S32x1 .f32) (i : S32x1.Idx) :
    pay (iblk m c 0 ⟨n, h⟩) (iblk m c 1 ⟨n, h⟩) xo i = xo i + bandAt m c e n i := by
  obtain ⟨b, u, rfl⟩ : ∃ (b : Fin 32) (u : Fin 1), i = ix2 b u := ⟨i 0, i 1, eq_ix2 i⟩
  refine (hpay (iblk m c 0 ⟨n, h⟩) (iblk m c 1 ⟨n, h⟩) xo b u).trans (congrArg (xo (ix2 b u) + ·) ?_)
  unfold bandAt
  rw [dif_pos h]
  refine Finset.sum_congr rfl fun r _ => Finset.sum_congr rfl fun l _ => ?_
  rw [logits_block, masks_block]

/-- An accumulator that resets at the multiples of 8 and steps by such a payload elsewhere holds, at a point with
    `t % 8 = 7`, the whole total of `e` for each of its half's samples. -/
theorem acc_at_flush (e : EReal → EReal → EReal)
    (f : (n : ℕ) → n < cfg0.N → Vec Ideal S32x1 .f32)
    (pay : Vec Ideal S32x1x64x512 .f32 → Vec Ideal S32x1x64x512 .f32 → Vec Ideal S32x1 .f32 → Vec Ideal S32x1 .f32)
    (z : Vec Ideal S32x1 .f32) (hz : ∀ i, z i = 0)
    (hpay : ∀ (x0 x1 : Vec Ideal S32x1x64x512 .f32) (xo : Vec Ideal S32x1 .f32) (b : Fin 32) (u : Fin 1),
      pay x0 x1 xo (ix2 b u) = xo (ix2 b u) + ∑ r : Fin 64, ∑ l : Fin 512, e (x0 (ix4 b 0 r l)) (x1 (ix4 b 0 r l)))
    (h0 : ∀ (n : ℕ) (h : n < cfg0.N), n % 8 = 0 → f n h = pay (iblk m c 0 ⟨n, h⟩) (iblk m c 1 ⟨n, h⟩) z)
    (hs : ∀ (n : ℕ) (h : n + 1 < cfg0.N), ¬(n + 1) % 8 = 0 →
      f (n + 1) h = pay (iblk m c 0 ⟨n + 1, h⟩) (iblk m c 1 ⟨n + 1, h⟩) (f n (Nat.lt_of_succ_lt h)))
    (t : Fin cfg0.N) (ht : t.val % 8 = 7) (b : Fin 32) (u : Fin 1) :
    f t.val t.isLt (ix2 b u) = total e (logits m c) (masks m c) (smpOf t b) := by
  have hN : cfg0.N = 16 := N_0
  have htN := t.isLt
  have h' : 8 * (t.val / 8) + t.val % 8 < cfg0.N := by omega
  have fold := Pipeline.eq_accAt_of_mod f 8 (fun n h => pay (iblk m c 0 ⟨n, h⟩) (iblk m c 1 ⟨n, h⟩) z)
    (fun n h acc => pay (iblk m c 0 ⟨n, h⟩) (iblk m c 1 ⟨n, h⟩) acc) h0 hs (by decide) t.val t.isLt h'
  have unrolled := Pipeline.accAt_add_apply (fun n h => pay (iblk m c 0 ⟨n, h⟩) (iblk m c 1 ⟨n, h⟩) z)
    (fun n h acc => pay (iblk m c 0 ⟨n, h⟩) (iblk m c 1 ⟨n, h⟩) acc) (fun _ => (0 : EReal)) (bandAt m c e) (8 * (t.val / 8)) 7
    (fun h i => by rw [pay_at_point m c e pay hpay _ h z i, hz i])
    (fun n h acc i _ _ => pay_at_point m c e pay hpay n h acc i)
    (t.val % 8) (by omega) h' (ix2 b u)
  rw [fold, unrolled, zero_add, ht, Finset.sum_range, ← total_bands]
  refine Finset.sum_congr rfl fun s _ => ?_
  have hs16 : 8 * (t.val / 8) + s.val < cfg0.N := by have := s.isLt; omega
  unfold bandAt
  rw [dif_pos hs16]
  have e1 : smpOf ⟨8 * (t.val / 8) + s.val, hs16⟩ b = smpOf t b := Fin.ext (by
    have := s.isLt; show 32 * ((8 * (t.val / 8) + s.val) / 8) + b.val = 32 * (t.val / 8) + b.val; omega)
  have e2 : ∀ r : Fin 64, rowOf ⟨8 * (t.val / 8) + s.val, hs16⟩ r = bandRow s r := fun r => Fin.ext (by
    have := s.isLt; show 64 * ((8 * (t.val / 8) + s.val) % 8) + r.val = 64 * s.val + r.val; omega)
  refine Finset.sum_congr rfl fun r _ => Finset.sum_congr rfl fun l _ => ?_
  show e (logits m c (ix4 (smpOf ⟨8 * (t.val / 8) + s.val, hs16⟩ b) 0 (rowOf ⟨8 * (t.val / 8) + s.val, hs16⟩ r) l)) _ = _
  rw [e1, e2 r]

/-! ## The four accumulators -/

/-- Accumulator 0 (`ePM`) after a half's last band holds that half's samples' whole totals. -/
theorem pm_at_flush (t : Fin cfg0.N) (ht : t.val % 8 = 7) (b : Fin 32) (u : Fin 1) :
    (outsAt0 m c t.val t.isLt).1 (ix2 b u) = total ePM (logits m c) (masks m c) (smpOf t b) := by
  refine acc_at_flush m c ePM (fun n h => (outsAt0 m c n h).1) (fun x0 x1 xo => k0_pay11 x0 x1 xo) (k0_pay3 (F := Ideal)) (fun i => splat_zero _ rfl i)
    (fun x0 x1 xo b u => pm_apply x0 x1 xo b u) ?_ ?_ t ht b u
  · intro n h hmod
    show (outsAt0 m c (⟨n, h⟩ : Fin cfg0.N).val (⟨n, h⟩ : Fin cfg0.N).isLt).1 = _
    rw [outsAt0_A m c ⟨n, h⟩ hmod]
    exact left_first_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hmod) (iblk m c 0 ⟨n, h⟩) (iblk m c 1 ⟨n, h⟩)
  · intro n h hmod
    show (outsAt0 m c (⟨n + 1, h⟩ : Fin cfg0.N).val (⟨n + 1, h⟩ : Fin cfg0.N).isLt).1 = _
    rw [outsAt0_B m c ⟨n + 1, h⟩ hmod]
    exact left_later_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hmod ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2

/-- Accumulator 1 (`ePP`) after a half's last band holds that half's samples' whole totals. -/
theorem pp_at_flush (t : Fin cfg0.N) (ht : t.val % 8 = 7) (b : Fin 32) (u : Fin 1) :
    (outsAt0 m c t.val t.isLt).2.1 (ix2 b u) = total ePP (logits m c) (masks m c) (smpOf t b) := by
  refine acc_at_flush m c ePP (fun n h => (outsAt0 m c n h).2.1) (fun x0 _x1 xo => k0_pay12 x0 xo) (k0_pay4 (F := Ideal)) (fun i => splat_zero _ rfl i)
    (fun x0 x1 xo b u => pp_apply x0 x1 xo b u) ?_ ?_ t ht b u
  · intro n h hmod
    show (outsAt0 m c (⟨n, h⟩ : Fin cfg0.N).val (⟨n, h⟩ : Fin cfg0.N).isLt).2.1 = _
    rw [outsAt0_A m c ⟨n, h⟩ hmod]
    exact left_first_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hmod) (iblk m c 0 ⟨n, h⟩) (iblk m c 1 ⟨n, h⟩)
  · intro n h hmod
    show (outsAt0 m c (⟨n + 1, h⟩ : Fin cfg0.N).val (⟨n + 1, h⟩ : Fin cfg0.N).isLt).2.1 = _
    rw [outsAt0_B m c ⟨n + 1, h⟩ hmod]
    exact left_later_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hmod ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2

/-- Accumulator 2 (`eMM`) after a half's last band holds that half's samples' whole totals. -/
theorem mm_at_flush (t : Fin cfg0.N) (ht : t.val % 8 = 7) (b : Fin 32) (u : Fin 1) :
    (outsAt0 m c t.val t.isLt).2.2.1 (ix2 b u) = total eMM (logits m c) (masks m c) (smpOf t b) := by
  refine acc_at_flush m c eMM (fun n h => (outsAt0 m c n h).2.2.1) (fun _x0 x1 xo => k0_pay1 (k0_pay9 x1) xo) (k0_pay5 (F := Ideal)) (fun i => splat_zero _ rfl i)
    (fun x0 x1 xo b u => mm_apply x0 x1 xo b u) ?_ ?_ t ht b u
  · intro n h hmod
    show (outsAt0 m c (⟨n, h⟩ : Fin cfg0.N).val (⟨n, h⟩ : Fin cfg0.N).isLt).2.2.1 = _
    rw [outsAt0_A m c ⟨n, h⟩ hmod]
    exact left_first_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hmod) (iblk m c 0 ⟨n, h⟩) (iblk m c 1 ⟨n, h⟩)
  · intro n h hmod
    show (outsAt0 m c (⟨n + 1, h⟩ : Fin cfg0.N).val (⟨n + 1, h⟩ : Fin cfg0.N).isLt).2.2.1 = _
    rw [outsAt0_B m c ⟨n + 1, h⟩ hmod]
    exact left_later_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hmod ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2

/-- Accumulator 3 (`eP`) after a half's last band holds that half's samples' whole totals. -/
theorem p_at_flush (t : Fin cfg0.N) (ht : t.val % 8 = 7) (b : Fin 32) (u : Fin 1) :
    (outsAt0 m c t.val t.isLt).2.2.2 (ix2 b u) = total eP (logits m c) (masks m c) (smpOf t b) := by
  refine acc_at_flush m c eP (fun n h => (outsAt0 m c n h).2.2.2) (fun x0 _x1 xo => k0_pay2 (k0_pay10 x0) xo) (k0_pay6 (F := Ideal)) (fun i => splat_zero _ rfl i)
    (fun x0 x1 xo b u => p_apply x0 x1 xo b u) ?_ ?_ t ht b u
  · intro n h hmod
    show (outsAt0 m c (⟨n, h⟩ : Fin cfg0.N).val (⟨n, h⟩ : Fin cfg0.N).isLt).2.2.2 = _
    rw [outsAt0_A m c ⟨n, h⟩ hmod]
    exact left_first_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hmod) (iblk m c 0 ⟨n, h⟩) (iblk m c 1 ⟨n, h⟩)
  · intro n h hmod
    show (outsAt0 m c (⟨n + 1, h⟩ : Fin cfg0.N).val (⟨n + 1, h⟩ : Fin cfg0.N).isLt).2.2.2 = _
    rw [outsAt0_B m c ⟨n + 1, h⟩ hmod]
    exact left_later_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hmod ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2

end Cert.KernelIdeal.Accum
-- ==== Proof.OutArrays.lean ====
/-
  The four result arrays after the region, at the ideal values.

  Each result is a 64 × 1 column, cut into two blocks of 32 rows, one per batch half. A half's block is written back
  once, after that half's last band, when the accumulator holds each sample's whole total. The two written blocks
  cover the column, so the array ends as the column of the 64 samples' totals.
-/
import proofs.«168181_j76931454206569_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.OutArrays

open Cert.KernelIdeal Cert.KernelIdeal.Gen Cert.KernelIdeal.Blocks Cert.KernelIdeal.Accum Cert.DiceSums

variable (m : (ℓ : Loc nD τ sig) → Buf (Elt Ideal) ℓ) (c : Dev nD)

/-- The column of the samples' totals of `e`. -/
def col (e : EReal → EReal → EReal) : S64x1.Idx → EReal := fun i => total e (logits m c) (masks m c) (i 0)

/-! ## Result 0 (`ePM`) -/

theorem mem_blk_2 (t : Fin cfg0.N) (i : S64x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v14_0).slice (win0_2.rect t)).set ↔ _
  rw [View.set_slice_whole, Rect.mem_set_unit]
  exact Iff.rfl

/-- What a half's last point writes back is that half's rows of the column of totals. -/
theorem flushed_2 (t : Fin cfg0.N) (hf : (cfg0.win 2).flush t = true) :
    (dats m 0 c).flushed 2 t = ((cfg0.win 2).blk t).view.read (Elt Ideal) (col m c ePM) := by
  have ht : t.val % 8 = 7 := (flush0_2 t).mp hf
  show (cfg0.win 2).cut (grid0.coords t) ((dats m 0 c).after 2 t) = _
  rw [after0_2]
  funext j
  obtain ⟨b, u, rfl⟩ : ∃ (b : Fin 32) (u : Fin 1), j = ix2 b u := ⟨j 0, j 1, eq_ix2 (n0 := 32) (n1 := 1) j⟩
  show (outsAt0 m c t.val t.isLt).1 (ix2 b u) = col m c ePM (((cfg0.win 2).blk t).view.emb (ix2 b u))
  rw [pm_at_flush m c t ht b u]
  unfold col
  congr 1
  apply Fin.ext
  show 32 * (t.val / 8) + b.val = win0_2.index t 0 * 32 + 1 * b.val
  rw [((index_out t).1).1]; omega

/-- The two halves' last points cover the 64 rows. -/
theorem cover_2 (i : S64x1.Idx) : ∃ t : Fin cfg0.N, (cfg0.win 2).flush t = true ∧ i ∈ ((cfg0.win 2).blk t).view.set := by
  have hN : cfg0.N = 16 := N_0
  have hi0 : (i 0).val < 64 := (i 0).isLt
  have hi1 : (i 1).val < 1 := (i 1).isLt
  have hlt : 8 * ((i 0).val / 32) + 7 < cfg0.N := by omega
  have hx := (index_out ⟨8 * ((i 0).val / 32) + 7, hlt⟩).1
  refine ⟨⟨8 * ((i 0).val / 32) + 7, hlt⟩, (flush0_2 _).mpr (by show (8 * ((i 0).val / 32) + 7) % 8 = 7; omega), ?_⟩
  rw [mem_blk_2]
  intro a
  match a with
  | ⟨0, _⟩ =>
    show win0_2.index ⟨8 * ((i 0).val / 32) + 7, hlt⟩ 0 * 32 ≤ (i 0).val ∧ (i 0).val < win0_2.index ⟨8 * ((i 0).val / 32) + 7, hlt⟩ 0 * 32 + 32
    rw [hx.1]
    show (8 * ((i 0).val / 32) + 7) / 8 * 32 ≤ (i 0).val ∧ (i 0).val < (8 * ((i 0).val / 32) + 7) / 8 * 32 + 32
    omega
  | ⟨1, _⟩ =>
    show win0_2.index ⟨8 * ((i 0).val / 32) + 7, hlt⟩ 1 * 1 ≤ (i 1).val ∧ (i 1).val < win0_2.index ⟨8 * ((i 0).val / 32) + 7, hlt⟩ 1 * 1 + 1
    rw [hx.2]
    omega

/-- So the result array ends holding the column of totals. -/
theorem final_2 : (dats m 0 c).arrAt 2 cfg0.N = col m c ePM :=
  (dats m 0 c).arrAt_eq_of_cover 2 (col m c ePM) (flushed_2 m c) (cover_2)

/-! ## Result 1 (`ePP`) -/

theorem mem_blk_3 (t : Fin cfg0.N) (i : S64x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v14_1).slice (win0_3.rect t)).set ↔ _
  rw [View.set_slice_whole, Rect.mem_set_unit]
  exact Iff.rfl

/-- What a half's last point writes back is that half's rows of the column of totals. -/
theorem flushed_3 (t : Fin cfg0.N) (hf : (cfg0.win 3).flush t = true) :
    (dats m 0 c).flushed 3 t = ((cfg0.win 3).blk t).view.read (Elt Ideal) (col m c ePP) := by
  have ht : t.val % 8 = 7 := (flush0_3 t).mp hf
  show (cfg0.win 3).cut (grid0.coords t) ((dats m 0 c).after 3 t) = _
  rw [after0_3]
  funext j
  obtain ⟨b, u, rfl⟩ : ∃ (b : Fin 32) (u : Fin 1), j = ix2 b u := ⟨j 0, j 1, eq_ix2 (n0 := 32) (n1 := 1) j⟩
  show (outsAt0 m c t.val t.isLt).2.1 (ix2 b u) = col m c ePP (((cfg0.win 3).blk t).view.emb (ix2 b u))
  rw [pp_at_flush m c t ht b u]
  unfold col
  congr 1
  apply Fin.ext
  show 32 * (t.val / 8) + b.val = win0_3.index t 0 * 32 + 1 * b.val
  rw [((index_out t).2.1).1]; omega

/-- The two halves' last points cover the 64 rows. -/
theorem cover_3 (i : S64x1.Idx) : ∃ t : Fin cfg0.N, (cfg0.win 3).flush t = true ∧ i ∈ ((cfg0.win 3).blk t).view.set := by
  have hN : cfg0.N = 16 := N_0
  have hi0 : (i 0).val < 64 := (i 0).isLt
  have hi1 : (i 1).val < 1 := (i 1).isLt
  have hlt : 8 * ((i 0).val / 32) + 7 < cfg0.N := by omega
  have hx := (index_out ⟨8 * ((i 0).val / 32) + 7, hlt⟩).2.1
  refine ⟨⟨8 * ((i 0).val / 32) + 7, hlt⟩, (flush0_3 _).mpr (by show (8 * ((i 0).val / 32) + 7) % 8 = 7; omega), ?_⟩
  rw [mem_blk_3]
  intro a
  match a with
  | ⟨0, _⟩ =>
    show win0_3.index ⟨8 * ((i 0).val / 32) + 7, hlt⟩ 0 * 32 ≤ (i 0).val ∧ (i 0).val < win0_3.index ⟨8 * ((i 0).val / 32) + 7, hlt⟩ 0 * 32 + 32
    rw [hx.1]
    show (8 * ((i 0).val / 32) + 7) / 8 * 32 ≤ (i 0).val ∧ (i 0).val < (8 * ((i 0).val / 32) + 7) / 8 * 32 + 32
    omega
  | ⟨1, _⟩ =>
    show win0_3.index ⟨8 * ((i 0).val / 32) + 7, hlt⟩ 1 * 1 ≤ (i 1).val ∧ (i 1).val < win0_3.index ⟨8 * ((i 0).val / 32) + 7, hlt⟩ 1 * 1 + 1
    rw [hx.2]
    omega

/-- So the result array ends holding the column of totals. -/
theorem final_3 : (dats m 0 c).arrAt 3 cfg0.N = col m c ePP :=
  (dats m 0 c).arrAt_eq_of_cover 3 (col m c ePP) (flushed_3 m c) (cover_3)

/-! ## Result 2 (`eMM`) -/

theorem mem_blk_4 (t : Fin cfg0.N) (i : S64x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v14_2).slice (win0_4.rect t)).set ↔ _
  rw [View.set_slice_whole, Rect.mem_set_unit]
  exact Iff.rfl

/-- What a half's last point writes back is that half's rows of the column of totals. -/
theorem flushed_4 (t : Fin cfg0.N) (hf : (cfg0.win 4).flush t = true) :
    (dats m 0 c).flushed 4 t = ((cfg0.win 4).blk t).view.read (Elt Ideal) (col m c eMM) := by
  have ht : t.val % 8 = 7 := (flush0_4 t).mp hf
  show (cfg0.win 4).cut (grid0.coords t) ((dats m 0 c).after 4 t) = _
  rw [after0_4]
  funext j
  obtain ⟨b, u, rfl⟩ : ∃ (b : Fin 32) (u : Fin 1), j = ix2 b u := ⟨j 0, j 1, eq_ix2 (n0 := 32) (n1 := 1) j⟩
  show (outsAt0 m c t.val t.isLt).2.2.1 (ix2 b u) = col m c eMM (((cfg0.win 4).blk t).view.emb (ix2 b u))
  rw [mm_at_flush m c t ht b u]
  unfold col
  congr 1
  apply Fin.ext
  show 32 * (t.val / 8) + b.val = win0_4.index t 0 * 32 + 1 * b.val
  rw [((index_out t).2.2.1).1]; omega

/-- The two halves' last points cover the 64 rows. -/
theorem cover_4 (i : S64x1.Idx) : ∃ t : Fin cfg0.N, (cfg0.win 4).flush t = true ∧ i ∈ ((cfg0.win 4).blk t).view.set := by
  have hN : cfg0.N = 16 := N_0
  have hi0 : (i 0).val < 64 := (i 0).isLt
  have hi1 : (i 1).val < 1 := (i 1).isLt
  have hlt : 8 * ((i 0).val / 32) + 7 < cfg0.N := by omega
  have hx := (index_out ⟨8 * ((i 0).val / 32) + 7, hlt⟩).2.2.1
  refine ⟨⟨8 * ((i 0).val / 32) + 7, hlt⟩, (flush0_4 _).mpr (by show (8 * ((i 0).val / 32) + 7) % 8 = 7; omega), ?_⟩
  rw [mem_blk_4]
  intro a
  match a with
  | ⟨0, _⟩ =>
    show win0_4.index ⟨8 * ((i 0).val / 32) + 7, hlt⟩ 0 * 32 ≤ (i 0).val ∧ (i 0).val < win0_4.index ⟨8 * ((i 0).val / 32) + 7, hlt⟩ 0 * 32 + 32
    rw [hx.1]
    show (8 * ((i 0).val / 32) + 7) / 8 * 32 ≤ (i 0).val ∧ (i 0).val < (8 * ((i 0).val / 32) + 7) / 8 * 32 + 32
    omega
  | ⟨1, _⟩ =>
    show win0_4.index ⟨8 * ((i 0).val / 32) + 7, hlt⟩ 1 * 1 ≤ (i 1).val ∧ (i 1).val < win0_4.index ⟨8 * ((i 0).val / 32) + 7, hlt⟩ 1 * 1 + 1
    rw [hx.2]
    omega

/-- So the result array ends holding the column of totals. -/
theorem final_4 : (dats m 0 c).arrAt 4 cfg0.N = col m c eMM :=
  (dats m 0 c).arrAt_eq_of_cover 4 (col m c eMM) (flushed_4 m c) (cover_4)

/-! ## Result 3 (`eP`) -/

theorem mem_blk_5 (t : Fin cfg0.N) (i : S64x1.Idx) :
    i ∈ ((cfg0.win 5).blk t).view.set ↔ ∀ a : Fin 2, win0_5.index t a * S32x1.size a ≤ (i a).val ∧ (i a).val < win0_5.index t a * S32x1.size a + S32x1.size a := by
  show i ∈ ((View.whole main_v14_3).slice (win0_5.rect t)).set ↔ _
  rw [View.set_slice_whole, Rect.mem_set_unit]
  exact Iff.rfl

/-- What a half's last point writes back is that half's rows of the column of totals. -/
theorem flushed_5 (t : Fin cfg0.N) (hf : (cfg0.win 5).flush t = true) :
    (dats m 0 c).flushed 5 t = ((cfg0.win 5).blk t).view.read (Elt Ideal) (col m c eP) := by
  have ht : t.val % 8 = 7 := (flush0_5 t).mp hf
  show (cfg0.win 5).cut (grid0.coords t) ((dats m 0 c).after 5 t) = _
  rw [after0_5]
  funext j
  obtain ⟨b, u, rfl⟩ : ∃ (b : Fin 32) (u : Fin 1), j = ix2 b u := ⟨j 0, j 1, eq_ix2 (n0 := 32) (n1 := 1) j⟩
  show (outsAt0 m c t.val t.isLt).2.2.2 (ix2 b u) = col m c eP (((cfg0.win 5).blk t).view.emb (ix2 b u))
  rw [p_at_flush m c t ht b u]
  unfold col
  congr 1
  apply Fin.ext
  show 32 * (t.val / 8) + b.val = win0_5.index t 0 * 32 + 1 * b.val
  rw [((index_out t).2.2.2).1]; omega

/-- The two halves' last points cover the 64 rows. -/
theorem cover_5 (i : S64x1.Idx) : ∃ t : Fin cfg0.N, (cfg0.win 5).flush t = true ∧ i ∈ ((cfg0.win 5).blk t).view.set := by
  have hN : cfg0.N = 16 := N_0
  have hi0 : (i 0).val < 64 := (i 0).isLt
  have hi1 : (i 1).val < 1 := (i 1).isLt
  have hlt : 8 * ((i 0).val / 32) + 7 < cfg0.N := by omega
  have hx := (index_out ⟨8 * ((i 0).val / 32) + 7, hlt⟩).2.2.2
  refine ⟨⟨8 * ((i 0).val / 32) + 7, hlt⟩, (flush0_5 _).mpr (by show (8 * ((i 0).val / 32) + 7) % 8 = 7; omega), ?_⟩
  rw [mem_blk_5]
  intro a
  match a with
  | ⟨0, _⟩ =>
    show win0_5.index ⟨8 * ((i 0).val / 32) + 7, hlt⟩ 0 * 32 ≤ (i 0).val ∧ (i 0).val < win0_5.index ⟨8 * ((i 0).val / 32) + 7, hlt⟩ 0 * 32 + 32
    rw [hx.1]
    show (8 * ((i 0).val / 32) + 7) / 8 * 32 ≤ (i 0).val ∧ (i 0).val < (8 * ((i 0).val / 32) + 7) / 8 * 32 + 32
    omega
  | ⟨1, _⟩ =>
    show win0_5.index ⟨8 * ((i 0).val / 32) + 7, hlt⟩ 1 * 1 ≤ (i 1).val ∧ (i 1).val < win0_5.index ⟨8 * ((i 0).val / 32) + 7, hlt⟩ 1 * 1 + 1
    rw [hx.2]
    omega

/-- So the result array ends holding the column of totals. -/
theorem final_5 : (dats m 0 c).arrAt 5 cfg0.N = col m c eP :=
  (dats m 0 c).arrAt_eq_of_cover 5 (col m c eP) (flushed_5 m c) (cover_5)

end Cert.KernelIdeal.OutArrays
-- ==== Proof.RefSums.lean ====
/-
  The reference's four per-sample sums, at the ideal values, as the same totals.

  The reference spells the logistic out as `1 / (1 + exp(−x))` with the host's divide, add, exponential and negate;
  on the extended reals that is the logistic's definition (`⊥ ↦ 0`, `⊤ ↦ 1` included), so its `p` is the kernel's.
  Each of its four sums runs over channel, row and entry of the whole array at once, from zero: at sample `σ` the
  double sum over the 512 rows and 512 entries of `e(logit, mask)`.
-/
import proofs.«168181_j76931454206569_2_alg».proof.Proof.RefReadP
import proofs.«168181_j76931454206569_2_alg».proof.Proof.SumLaw
import Idealize.ShloMosaic.PureOps.Ideal.Laws
import Idealize.ShloMosaic.Lib.ValueIdx

noncomputable section

open Idealize.ShloMosaic Idealize.ShloMosaic.ValueIdx

namespace Cert.ReferenceIdeal.Sums

open Cert.ReferenceIdeal Cert.ReferenceIdeal.Gen Cert.ReferenceIdeal.ReadP Cert.DiceSums

/-- The word of `1.0` is the extended real `1`. -/
theorem one_f32 : Ideal.ofBits .f32 0x3F800000#32 = 1 := IdealRules.sign_bit.ideal_onePat .f32

/-- The reference's spelt-out sigmoid is the logistic. -/
theorem sigmoid_apply (x1 : (⟨S64x1x512x512, .f32⟩ : BufTy).Contents (Elt Ideal)) (i : S64x1x512x512.Idx) :
    val_main_v5 (F := Ideal) x1 i = Ideal.logistic (x1 i) := by
  rw [val_main_v5_apply, val_main_v4_apply, val_main_cst_0_apply, val_main_v3_apply, val_main_v2_apply, val_main_cst_apply,
    val_main_v1_apply, val_main_v0_apply]
  simp only [Ideal.hostDivf_def, Ideal.addf_def, Ideal.hostUnary_exp_def, Ideal.hostNegf_def, Ideal.negf_def, Ideal.ofBits_def, one_f32]
  rfl

/-- A sum over channel, row and entry from a zero initial value, at sample `j`. -/
theorem reduce_apply (y : FVec Ideal S64x1x512x512 .f32) (z : FVec Ideal S_ .f32)
    (hz : ∀ i, z i = 0) (j : S64.Idx) :
    Host.reduceAdd (F := Ideal) y z reducesTo_S64x1x512x512_S64_d1_2_3 h_S_ j = ∑ h : Fin 512, ∑ l : Fin 512, y (ix4 (j 0) 0 h l) := by
  show Ideal.hostReduceAdd reducesTo_S64x1x512x512_S64_d1_2_3 y (z (Shape.Idx.first h_S_)) j = _
  unfold Ideal.hostReduceAdd
  rw [hz, zero_add]
  exact sum_sample reducesTo_S64x1x512x512_S64_d1_2_3 y j

variable (x1 x3 : (⟨S64x1x512x512, .f32⟩ : BufTy).Contents (Elt Ideal))

/-- Σ p·m -/
theorem pm_eq : val_main_v21 (F := Ideal) x1 x3 = fun j => total ePM x1 x3 (j 0) := by
  funext j
  unfold val_main_v21
  refine (reduce_apply _ _ (fun i => (val_main_cst_7_apply i).trans Ideal.ofBits_zero_f32) j).trans ?_
  unfold total
  refine Finset.sum_congr rfl fun h _ => Finset.sum_congr rfl fun l _ => ?_
  rw [val_main_v20_apply, sigmoid_apply]; rfl

/-- Σ p·p -/
theorem pp_eq : val_main_v23 (F := Ideal) x1 = fun j => total ePP x1 x3 (j 0) := by
  funext j
  unfold val_main_v23
  refine (reduce_apply _ _ (fun i => (val_main_cst_8_apply i).trans Ideal.ofBits_zero_f32) j).trans ?_
  unfold total
  refine Finset.sum_congr rfl fun h _ => Finset.sum_congr rfl fun l _ => ?_
  rw [val_main_v22_apply, sigmoid_apply]; rfl

/-- Σ m·m -/
theorem mm_eq : val_main_v25 (F := Ideal) x3 = fun j => total eMM x1 x3 (j 0) := by
  funext j
  unfold val_main_v25
  refine (reduce_apply _ _ (fun i => (val_main_cst_9_apply i).trans Ideal.ofBits_zero_f32) j).trans ?_
  unfold total
  refine Finset.sum_congr rfl fun h _ => Finset.sum_congr rfl fun l _ => ?_
  rw [val_main_v24_apply]; rfl

/-- Σ p -/
theorem p_eq : val_main_v26 (F := Ideal) x1 = fun j => total eP x1 x3 (j 0) := by
  funext j
  unfold val_main_v26
  refine (reduce_apply _ _ (fun i => (val_main_cst_10_apply i).trans Ideal.ofBits_zero_f32) j).trans ?_
  unfold total
  refine Finset.sum_congr rfl fun h _ => Finset.sum_congr rfl fun l _ => ?_
  rw [sigmoid_apply]; rfl

end Cert.ReferenceIdeal.Sums
-- ==== Proof.KernelRun.lean ====
/-
  The kernel's two results, at the ideal values, as functions of its arguments.

  After the region the program reshapes the four 64 × 1 columns of totals to 64-vectors and applies the dice formulas,
  the selection by label and the averaging over the selected samples; the first result (the classification loss) was
  computed before the region from the class probabilities and the labels alone. Both programs apply the SAME
  operations, with the same constants, to the class probabilities, the labels and the four vectors of totals; so
  once the four vectors are known to be the reference's four sums (the columns of totals on this side, the same
  totals on the other), each result is the reference's result term of the same arguments, operation for operation.
-/
import proofs.«168181_j76931454206569_2_alg».proof.Proof.OutArrays
import proofs.«168181_j76931454206569_2_alg».proof.Proof.RefSums
import Idealize.ShloMosaic.Lib.StableHlo.Run

noncomputable section

open Idealize.ShloMosaic Idealize.ShloMosaic.TcCoe Idealize.SL.Sem Idealize.ShloMosaic.StableHlo Idealize.ShloMosaic.ValueIdx

namespace Cert.KernelIdeal.Results

open Cert.KernelIdeal Cert.KernelIdeal.Gen Cert.KernelIdeal.Accum Cert.KernelIdeal.OutArrays Cert.DiceSums Cert.LibColumnCasts

variable (m : (ℓ : Loc nD τ sig) → Buf (Elt Ideal) ℓ) (ρ : Dev nD → PrngReg)

/-! ## What the operations after the region read -/

/-- The class probabilities: as the caller left them. -/
theorem read_probs (c : Dev nD) : Pipeline.withArrays (cfgs 0).spec c (V0 m c) (fun w => (dats m 0 c).arrAt w (cfgs 0).N) (Proc.devRef .tc main_arg0) = m ((c : Thread nD τ).loc main_arg0) := by
  rw [Pipeline.withArrays_of_ne _ c (V0 m c) _ main_arg0 (by exact (by decide : ∀ w, Pipeline.arrRef spec0 w ≠ main_arg0))]
  exact V_main_arg0 m c

/-- The labels as floats: converted before the region. -/
theorem read_labels (c : Dev nD) : Pipeline.withArrays (cfgs 0).spec c (V0 m c) (fun w => (dats m 0 c).arrAt w (cfgs 0).N) (Proc.devRef .tc main_v0) = (sitofp (F := Ideal) .f32 (m ((c : Thread nD τ).loc main_arg2)) : FVec Ideal S64 .f32) := by
  rw [Pipeline.withArrays_of_ne _ c (V0 m c) _ main_v0 (by exact (by decide : ∀ w, Pipeline.arrRef spec0 w ≠ main_v0))]
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append]
  after_results_simp

/-- The four result arrays of the region: the columns of totals. -/
theorem read_pm (c : Dev nD) : Pipeline.withArrays (cfgs 0).spec c (V0 m c) (fun w => (dats m 0 c).arrAt w (cfgs 0).N) (Proc.devRef .tc main_v14_0) = col m c ePM :=
  (Pipeline.withArrays_arr spec0 launch0.win.arr_inj c _ _ 2).trans (final_2 m c)
theorem read_pp (c : Dev nD) : Pipeline.withArrays (cfgs 0).spec c (V0 m c) (fun w => (dats m 0 c).arrAt w (cfgs 0).N) (Proc.devRef .tc main_v14_1) = col m c ePP :=
  (Pipeline.withArrays_arr spec0 launch0.win.arr_inj c _ _ 3).trans (final_3 m c)
theorem read_mm (c : Dev nD) : Pipeline.withArrays (cfgs 0).spec c (V0 m c) (fun w => (dats m 0 c).arrAt w (cfgs 0).N) (Proc.devRef .tc main_v14_2) = col m c eMM :=
  (Pipeline.withArrays_arr spec0 launch0.win.arr_inj c _ _ 4).trans (final_4 m c)
theorem read_p (c : Dev nD) : Pipeline.withArrays (cfgs 0).spec c (V0 m c) (fun w => (dats m 0 c).arrAt w (cfgs 0).N) (Proc.devRef .tc main_v14_3) = col m c eP :=
  (Pipeline.withArrays_arr spec0 launch0.win.arr_inj c _ _ 5).trans (final_5 m c)

/-- A column of totals read as a vector is the vector of totals. -/
theorem uncol (c : Dev nD) (e : EReal → EReal → EReal) (h : S64x1.ShapeCasts S64) :
    (fun i => shapeCast S64 (col m c e) h i) = fun j : S64.Idx => total e (logits m c) (masks m c) (j 0) := by
  funext j
  obtain ⟨σ, rfl⟩ : ∃ σ : Fin 64, j = ix1 σ := ⟨j 0, eq_ix1 j⟩
  exact cast_uncolumn (col m c e) h σ

/-! ## The two results -/

set_option maxRecDepth 8192 in
set_option maxHeartbeats 4000000 in
/-- The segmentation loss is the reference's term of the same four arguments. -/
theorem seg_eq (c : Dev nD) :
    Pipeline.afterTail₀ cfgs (dats m) 0 (V0 m) [hostOps1, hostOps1_1, hostOps1_2, hostOps1_3] c main_v44
      = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) := by
  unfold Pipeline.afterTail₀
  simp only [hostOps1, hostOps1_1, hostOps1_2, hostOps1_3, List.flatten_cons, List.flatten_nil, List.append_nil, List.cons_append, List.nil_append]
  after_results_simp
  rw [read_probs, read_labels, read_pm, read_pp, read_mm, read_p]
  rw [show (fun i => shapeCast main_v15.ty.shape (col m c ePM) shapeCasts_S64x1_S64 i) = _ from uncol m c ePM shapeCasts_S64x1_S64,
    show (fun i => shapeCast main_v16.ty.shape (col m c ePP) shapeCasts_S64x1_S64 i) = _ from uncol m c ePP shapeCasts_S64x1_S64,
    show (fun i => shapeCast main_v17.ty.shape (col m c eMM) shapeCasts_S64x1_S64 i) = _ from uncol m c eMM shapeCasts_S64x1_S64,
    show (fun i => shapeCast main_v18.ty.shape (col m c eP) shapeCasts_S64x1_S64 i) = _ from uncol m c eP shapeCasts_S64x1_S64]
  rw [← Cert.ReferenceIdeal.Sums.pm_eq (m ((c : Thread nD τ).loc main_arg1)) (m ((c : Thread nD τ).loc main_arg3)), ← Cert.ReferenceIdeal.Sums.pp_eq (m ((c : Thread nD τ).loc main_arg1)) (m ((c : Thread nD τ).loc main_arg3)),
    ← Cert.ReferenceIdeal.Sums.mm_eq (m ((c : Thread nD τ).loc main_arg1)) (m ((c : Thread nD τ).loc main_arg3)), ← Cert.ReferenceIdeal.Sums.p_eq (m ((c : Thread nD τ).loc main_arg1)) (m ((c : Thread nD τ).loc main_arg3))]
  rfl

set_option maxRecDepth 8192 in
set_option maxHeartbeats 4000000 in
/-- The classification loss, computed before the region, is the reference's term of the same two arguments. -/
theorem cls_eq (c : Dev nD) :
    Pipeline.afterTail₀ cfgs (dats m) 0 (V0 m) [hostOps1, hostOps1_1, hostOps1_2, hostOps1_3] c main_v13
      = Cert.ReferenceIdeal.ReadP.val_main_v19 (F := Ideal) (m ((c : Thread nD τ).loc main_arg0)) (m ((c : Thread nD τ).loc main_arg2)) := by
  unfold Pipeline.afterTail₀
  simp only [hostOps1, hostOps1_1, hostOps1_2, hostOps1_3, List.flatten_cons, List.flatten_nil, List.append_nil, List.cons_append, List.nil_append]
  after_results_simp
  rw [Pipeline.withArrays_of_ne _ c (V0 m c) _ main_v13 (by exact (by decide : ∀ w, Pipeline.arrRef spec0 w ≠ main_v13))]
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results_simp
  rfl

/-! ## The run, read -/

/-- Every weakly fair execution of the kernel's program terminates with its two results at the reference's result
    terms of the kernel's own arguments, and the arguments unchanged. -/
theorem run : θ_run defs (onTc (τ := τ) (main (F := Ideal))) ⟨m, fun _ => 0, ρ⟩ fun r => ∀ c : Dev nD,
      r.2.mem ((c : Thread nD τ).loc main_v13) = Cert.ReferenceIdeal.ReadP.val_main_v19 (F := Ideal) (m ((c : Thread nD τ).loc main_arg0)) (m ((c : Thread nD τ).loc main_arg2))
      ∧ r.2.mem ((c : Thread nD τ).loc main_v44) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v13 (Pipeline.mem_restRefs_of main_v13 (by decide) (by decide))).trans (cls_eq m c),
      ((h c).2 main_v44 (Pipeline.mem_restRefs_of main_v44 (by decide) (by decide))).trans (seg_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.KernelIdeal.Results
-- ==== Proof.lean ====
/-
  A per-sample dice and cross-entropy loss: the kernel against its jnp reference, over the extended reals.

  Inputs: class probabilities `pc` (64), segmentation logits `x` and masks `m` (64 × 1 × 512 × 512), labels (64).
  With `p` the logistic of `x`, both programs need for every sample the four totals over its 512 × 512 entries

      Σ p·m      Σ p·p      Σ m·m      Σ p ,

  and both then apply the same operations to them (the two dice quotients, the choice by label, the average over
  the samples with `pc ≥ 0.5`), next to a classification loss that only reads `pc` and the labels.

  The reference takes each total as one sum over channel, row and entry. The kernel walks a 2 × 8 grid: a grid
  point holds 32 samples and a band of 64 rows; it adds the 512 entries of every row, then the 64 row sums, and adds
  that band total into a 32 × 1 accumulator which is reset at a batch half's first band and written back after its
  eighth. So for every sample the kernel's value is `0 + Σ_{band} Σ_{row in band} Σ_{entry}`, the reference's
  `0 + Σ_{(channel, row, entry)}` of the same terms: equal because `(band, row in band) ↦ 64·band + row` is a
  bijection onto the rows and the one channel contributes one coordinate. Addition on the extended reals is
  commutative and associative at the infinities too, so the regrouping needs no finiteness and the precondition is
  never opened. The kernel's one-operation logistic and the reference's `1 / (1 + exp(−x))` are the same function
  on the extended reals by definition.

  The idealization rewrote nothing, so `preserves` asks nothing. The three frames are the generated ones (the
  reference's: its run with the results dropped).
-/
import proofs.«168181_j76931454206569_2_alg».proof.Defs
import proofs.«168181_j76931454206569_2_alg».proof.Proof.Gen.Kernel
import proofs.«168181_j76931454206569_2_alg».proof.Proof.Gen.Kernel.Skeleton
import proofs.«168181_j76931454206569_2_alg».proof.Proof.Gen.Kernel.Launch
import proofs.«168181_j76931454206569_2_alg».proof.Proof.Gen.Kernel.Points
import proofs.«168181_j76931454206569_2_alg».proof.Proof.Gen.Kernel.Frame
import proofs.«168181_j76931454206569_2_alg».proof.Proof.Gen.KernelIdeal
import proofs.«168181_j76931454206569_2_alg».proof.Proof.Gen.KernelIdeal.Skeleton
import proofs.«168181_j76931454206569_2_alg».proof.Proof.Gen.KernelIdeal.Launch
import proofs.«168181_j76931454206569_2_alg».proof.Proof.Gen.KernelIdeal.Points
import proofs.«168181_j76931454206569_2_alg».proof.Proof.Gen.KernelIdeal.Frame
import proofs.«168181_j76931454206569_2_alg».proof.Proof.Gen.ReferenceIdeal
import proofs.«168181_j76931454206569_2_alg».proof.Proof.Gen.Pre_finite_inputs
import proofs.«168181_j76931454206569_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no region: its frame is its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the reference's two result terms of the kernel's arguments: the kernel's by the
    regrouping of the four totals, the reference's because its arguments agree with the kernel's. -/
theorem algebraic : Cert.algebraic_KernelIdeal_ReferenceIdeal := by
  intro m ρ m' ρ' _ hagree
  refine ⟨fun c => Cert.ReferenceIdeal.ReadP.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.ReferenceIdeal.ReadP.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v19_eq, (hagree c).1, (hagree c).2.2.1]
  · rw [Cert.ReferenceIdeal.ReadP.val_main_v52_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
